-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x256 : Shape := ⟨3, ![1024, 128, 256]⟩
abbrev S1024 : Shape := ⟨1, ![1024]⟩
abbrev S_ : Shape := ⟨0, ![]⟩

class Facts : Prop where
  bcast_S_S1024x128x256 : S_.BroadcastsInDim S1024x128x256 (![] : Fin 0 → Fin S1024x128x256.rank)
  reducesTo_S1024x128x256_S_d0_1_2 : S1024x128x256.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x128x256 .f32) (main_arg1 : IVec S1024 32) : IVec S_ 1 :=
  let main_v0 : FVec F S1024x128x256 .f32 := Host.absf main_arg0
  let main_cst : FVec F S_ .f32 := constant S_ .f32 0x7F800000#32
  let main_v1 : FVec F S1024x128x256 .f32 := broadcastInDim S1024x128x256 ![] bcast_S_S1024x128x256 main_cst
  let main_v2 : IVec S1024x128x256 1 := cmpf .olt main_v0 main_v1
  let main_c : IVec S_ 1 := constantI S_ 1 1#1
  let main_v3 : IVec S_ 1 := (fun x v => Host.reduce IntOp.andi x v reducesTo_S1024x128x256_S_d0_1_2 h_S_) main_v2 main_c
  let main_c_0 : IVec S_ 32 := constantI S_ 32 0#32
  let main_v4 : IVec S1024 32 := broadcastInDim S1024 ![] bcast_S_S1024 main_c_0
  let main_v5 : IVec S1024 1 := cmpi .ne main_arg1 main_v4
  let main_c_1 : IVec S_ 1 := constantI S_ 1 1#1
  let main_v6 : IVec S_ 1 := (fun x v => Host.reduce IntOp.andi x v reducesTo_S1024_S_d0 h_S_) main_v5 main_c_1
  let main_v7 : IVec S_ 1 := andi main_v3 main_v6
  main_v7
-- ==== Kernel.lean ====
abbrev S1024x128x256 : Shape := ⟨3, ![1024, 128, 256]⟩
abbrev S1024 : Shape := ⟨1, ![1024]⟩
abbrev S1024x1 : Shape := ⟨2, ![1024, 1]⟩
abbrev S32x128x256 : Shape := ⟨3, ![32, 128, 256]⟩
abbrev S32x1 : Shape := ⟨2, ![32, 1]⟩
abbrev S32x128x128 : Shape := ⟨3, ![32, 128, 128]⟩
abbrev S32x128 : Shape := ⟨2, ![32, 128]⟩
abbrev S32x128x1 : Shape := ⟨3, ![32, 128, 1]⟩
abbrev S32x1x128 : Shape := ⟨3, ![32, 1, 128]⟩
abbrev S128x128 : Shape := ⟨2, ![128, 128]⟩
abbrev S1x128x128 : Shape := ⟨3, ![1, 128, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S1024x128x256, .f32⟩
  | .hbm, ⟨1, _⟩ => ⟨S1024, .i32⟩
  | .hbm, ⟨2, _⟩ => ⟨S1024x1, .i32⟩
  | .hbm, ⟨3, _⟩ => ⟨S1024x1, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x128x256, .f32⟩
  | .local _ .vmem, ⟨1, _⟩ => ⟨S32x128x256, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1024x1 : S1024.ShapeCasts S1024x1
  inb_S32x128x256_S32x128x256_0_0_0 : ∀ a, (![0, 0, 0] : Fin 3 → Nat) a + S32x128x256.size a ≤ S32x128x256.size a
  h_S32x128x256 : 0 < S32x128x256.numel
  bitsLt_bf16_f32 : FTy.bits .bf16 < FTy.bits .f32
  reduces_S32x128x256_S32x128 : S32x128x256.Reduces [2] S32x128
  shapeCasts_S32x128_S32x128x1 : S32x128.ShapeCasts S32x128x1
  transposes_S32x128x1_p0_2_1_S32x1x128 : S32x128x1.Transposes [0, 2, 1] S32x1x128
  broadcasts_S32x128x1_S32x128x128 : S32x128x1.Broadcasts S32x128x128
  broadcasts_S32x1x128_S32x128x128 : S32x1x128.Broadcasts S32x128x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x128_d1_w32 : S32x128.Iotas .tc 32 [1]
  broadcasts_S32x1_S32x128 : S32x1.Broadcasts S32x128
  natLt_1_32 : 1 < 32
  shapeCasts_S32x128_S32x1x128 : S32x128.ShapeCasts S32x1x128
  iota_S128x128_d0_w32 : S128x128.Iotas .tc 32 [0]
  iota_S128x128_d1_w32 : S128x128.Iotas .tc 32 [1]
  shapeCasts_S128x128_S1x128x128 : S128x128.ShapeCasts S1x128x128
  broadcasts_S1x128x128_S32x128x128 : S1x128x128.Broadcasts S32x128x128
  reduces_S32x128x128_S32x128 : S32x128x128.Reduces [2] S32x128
  reduces_S32x128x1_S32x1 : S32x128x1.Reduces [1] S32x1
  shapeCasts_S1024x1_S1024 : S1024x1.ShapeCasts S1024
  reducesTo_S1024_S_d0 : S1024.ReducesTo [0] S_
  h_S_ : 0 < S_.numel
  dot_S32x128x256_S32x128x256_S32x128x128_2_2_1_1_0_0_wf : DotDims.WF S32x128x256 S32x128x256 S32x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S1024x128x256.size a
  hwx0_0 : ∀ i : grid0.Coords, EltTy.bits .f32 = 32 ∨ (Rect.block (s := S1024x128x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S1024x1.size a
  hwx0_1 : ∀ i : grid0.Coords, EltTy.bits .i32 = 32 ∨ (Rect.block (s := S1024x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S1024x1.size a
  hwx0_2 : ∀ i : grid0.Coords, EltTy.bits .f32 = 32 ∨ (Rect.block (s := S1024x1) S32x1.size (cc0_transform_2 i) (hinb0_2 i)).WholeWords (EltTy.packing .f32)

variable [Facts₀]

def dot_S32x128x256_S32x128x256_S32x128x128_2_2_1_1_0_0 : DotDims S32x128x256 S32x128x256 S32x128x128 where
  lhsContracting := [2]
  rhsContracting := [2]
  lhsNonContracting := [1]
  rhsNonContracting := [1]
  lhsBatch := [0]
  rhsBatch := [0]
  wf := dot_S32x128x256_S32x128x256_S32x128x128_2_2_1_1_0_0_wf

abbrev win0_0 : Pipeline.Window sig grid0 :=
  Pipeline.Window.ofSpec (Memref.whole main_arg0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x128x256 : Shape := ⟨3, ![1024, 128, 256]⟩
abbrev S1024 : Shape := ⟨1, ![1024]⟩
abbrev S1024x128x128 : Shape := ⟨3, ![1024, 128, 128]⟩
abbrev S_ : Shape := ⟨0, ![]⟩
abbrev S1024x128 : Shape := ⟨2, ![1024, 128]⟩
abbrev S1024x128x1 : Shape := ⟨3, ![1024, 128, 1]⟩
abbrev S1024x1x128 : Shape := ⟨3, ![1024, 1, 128]⟩
abbrev S128 : Shape := ⟨1, ![128]⟩
abbrev S1x128 : Shape := ⟨2, ![1, 128]⟩
abbrev S1024x1 : Shape := ⟨2, ![1024, 1]⟩
abbrev S128x128 : Shape := ⟨2, ![128, 128]⟩
abbrev S1x128x128 : Shape := ⟨3, ![1, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S1024, .i32⟩
  | .hbm, ⟨2, _⟩ => ⟨S1024x128x128, .f32⟩
  | .hbm, ⟨3, _⟩ => ⟨S1024x128x256, .f32⟩
  | .hbm, ⟨4, _⟩ => ⟨S_, .f32⟩
  | .hbm, ⟨5, _⟩ => ⟨S1024x128, .f32⟩
  | .hbm, ⟨6, _⟩ => ⟨S1024x128x1, .f32⟩
  | .hbm, ⟨7, _⟩ => ⟨S1024x128x1, .f32⟩
  | .hbm, ⟨8, _⟩ => ⟨S1024x1x128, .f32⟩
  | .hbm, ⟨9, _⟩ => ⟨S1024x128x128, .f32⟩
  | .hbm, ⟨10, _⟩ => ⟨S1024x128x128, .f32⟩
  | .hbm, ⟨11, _⟩ => ⟨S1024x128x128, .f32⟩
  | .hbm, ⟨12, _⟩ => ⟨S_, .f32⟩
  | .hbm, ⟨13, _⟩ => ⟨S1024x128x128, .f32⟩
  | .hbm, ⟨14, _⟩ => ⟨S1024x128x128, .f32⟩
  | .hbm, ⟨15, _⟩ => ⟨S1024x128x128, .f32⟩
  | .hbm, ⟨16, _⟩ => ⟨S128, .i32⟩
  | .hbm, ⟨17, _⟩ => ⟨S1x128, .i32⟩
  | .hbm, ⟨18, _⟩ => ⟨S1024x1, .i32⟩
  | .hbm, ⟨19, _⟩ => ⟨S1024x128, .i32⟩
  | .hbm, ⟨20, _⟩ => ⟨S1024x128, .i32⟩
  | .hbm, ⟨21, _⟩ => ⟨S1024x128, .i1⟩
  | .hbm, ⟨22, _⟩ => ⟨S1024x128x1, .i1⟩
  | .hbm, ⟨23, _⟩ => ⟨S1024x1x128, .i1⟩
  | .hbm, ⟨24, _⟩ => ⟨S1024x128x128, .i1⟩
  | .hbm, ⟨25, _⟩ => ⟨S1024x128x128, .i1⟩
  | .hbm, ⟨26, _⟩ => ⟨S1024x128x128, .i1⟩
  | .hbm, ⟨27, _⟩ => ⟨S1024x128x128, .f32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .f32⟩
  | .hbm, ⟨35, _⟩ => ⟨S1x128x128, .f32⟩
  | .hbm, ⟨36, _⟩ => ⟨S1024x128x128, .f32⟩
  | .hbm, ⟨37, _⟩ => ⟨S1024x128x128, .f32⟩
  | .hbm, ⟨38, _⟩ => ⟨S1024x128x128, .f32⟩
  | .hbm, ⟨39, _⟩ => ⟨S1024x128x128, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  reducesTo_S1024x128x256_S1024x128_d2 : S1024x128x256.ReducesTo [2] S1024x128
  h_S_ : 0 < S_.numel
  bcast_S1024x128_S1024x128x1_0_1 : S1024x128.BroadcastsInDim S1024x128x1 (![0, 1] : Fin 2 → Fin S1024x128x1.rank)
  transposes_S1024x128x1_S1024x1x128_0_2_1 : S1024x128x1.Transposes [0, 2, 1] S1024x1x128
  bcast_S1024x128x1_S1024x128x128_0_1_2 : S1024x128x1.BroadcastsInDim S1024x128x128 (![0, 1, 2] : Fin 3 → Fin S1024x128x128.rank)
  bcast_S1024x1x128_S1024x128x128_0_1_2 : S1024x1x128.BroadcastsInDim S1024x128x128 (![0, 1, 2] : Fin 3 → Fin S1024x128x128.rank)
  bcast_S_S1024x128x128 : S_.BroadcastsInDim S1024x128x128 (![] : Fin 0 → Fin S1024x128x128.rank)
  bcast_S128_S1x128_1 : S128.BroadcastsInDim S1x128 (![1] : Fin 1 → Fin S1x128.rank)
  bcast_S1024_S1024x1_0 : S1024.BroadcastsInDim S1024x1 (![0] : Fin 1 → Fin S1024x1.rank)
  bcast_S1x128_S1024x128_0_1 : S1x128.BroadcastsInDim S1024x128 (![0, 1] : Fin 2 → Fin S1024x128.rank)
  bcast_S1024x1_S1024x128_0_1 : S1024x1.BroadcastsInDim S1024x128 (![0, 1] : Fin 2 → Fin S1024x128.rank)
  bcast_S1024x128_S1024x1x128_0_2 : S1024x128.BroadcastsInDim S1024x1x128 (![0, 2] : Fin 2 → Fin S1024x1x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S1024x128x128_0_1_2 : S1x128x128.BroadcastsInDim S1024x128x128 (![0, 1, 2] : Fin 3 → Fin S1024x128x128.rank)
  reducesTo_S1024x128x128_S1024_d1_2 : S1024x128x128.ReducesTo [1, 2] S1024
  reducesTo_S1024_S_d0 : S1024.ReducesTo [0] S_
  dot_S1024x128x256_S1024x128x256_S1024x128x128_2_2_1_1_0_0_wf : DotDims.WF S1024x128x256 S1024x128x256 S1024x128x128 [2] [2] [1] [1] [0] [0]

variable [Facts₀]

def dot_S1024x128x256_S1024x128x256_S1024x128x128_2_2_1_1_0_0 : DotDims S1024x128x256 S1024x128x256 S1024x128x128 where
  lhsContracting := [2]
  rhsContracting := [2]
  lhsNonContracting := [1]
  rhsNonContracting := [1]
  lhsBatch := [0]
  rhsBatch := [0]
  wf := dot_S1024x128x256_S1024x128x256_S1024x128x128_2_2_1_1_0_0_wf

class Facts : Prop extends Facts₀ where

variable [Facts]
-- ==== Proof.Spec.lean ====
/-
  The loss of ONE sample, as a function of its 128 x 256 matrix of rows and of its count word, and the scalar
  facts that let the two programs' spellings of it meet.

  For a sample with rows x_p (p < 128, each of 256 reals) and count word w (a signed 32-bit integer m):
    cos(p, q)  = <x_p, x_q> / max(|x_p| * |x_q|, eps)          (|x_p| = sqrt <x_p, x_p>)
    cell(p, q) = (cos(p, q) - [p = q])^2 * [p < m and q < m]
    loss       = (sum over p, q of cell(p, q)) / (m * m).
  One program writes the indicator [p < m and q < m] as a product of two 0/1 numbers, each the integer
  word of a comparison converted as a signed integer, the other as the conjunction of the two comparison
  bits converted as an unsigned one; and one divides by max(m * m, eps) where the other divides by m * m.
  The first two are the same number for every pair of bits; the last two are the same number as soon as
  m is not zero, because then m * m >= 1 > eps.
-/
import Idealize.ShloMosaic.PureOps.Ideal
import Idealize.ShloMosaic.PureOps.Ideal.Laws
import Idealize.ShloMosaic.Lib.ValueIdx

noncomputable section

namespace Cert.MotifLoss

open Idealize.ShloMosaic

/-- The guard under both quotients: the f32 nearest 1e-8. -/
abbrev eps : EReal := Ideal.ofBits .f32 0x322BCC77#32

/-- The bit "row p is below the count m". -/
def below (w : BitVec 32) (p : Fin 128) : BitVec 1 := IntOp.cmpi .slt (BitVec.ofNat 32 p.val) w

/-- The bit "p = q". -/
def onDiag (p q : Fin 128) : BitVec 1 := IntOp.cmpi .eq (BitVec.ofNat 32 p.val) (BitVec.ofNat 32 q.val)

/-- The guarded cosine of rows p and q. -/
def cosine (x : Fin 128 → Fin 256 → EReal) (p q : Fin 128) : EReal :=
  Ideal.div (∑ k : Fin 256, x p k * x q k)
    (max (Ideal.sqrt (∑ k : Fin 256, x p k * x p k) * Ideal.sqrt (∑ k : Fin 256, x q k * x q k)) eps)

/-- One entry of the masked squared deviation of the cosine matrix from the identity. -/
def cell (x : Fin 128 → Fin 256 → EReal) (w : BitVec 32) (p q : Fin 128) : EReal :=
  (cosine x p q - (((onDiag p q).toNat : ℝ) : EReal)) * (cosine x p q - (((onDiag p q).toNat : ℝ) : EReal))
    * ((((IntOp.andi (below w p) (below w q)).toNat : ℝ)) : EReal)

/-- The sample's loss: the entries summed, over the square of the count. -/
def sampleLoss (x : Fin 128 → Fin 256 → EReal) (w : BitVec 32) : EReal :=
  Ideal.div (∑ p : Fin 128, ∑ q : Fin 128, cell x w p q) (((w.toInt : ℝ) : EReal) * ((w.toInt : ℝ) : EReal))

/-- The same with the guard under the outer quotient too. -/
def guardedLoss (x : Fin 128 → Fin 256 → EReal) (w : BitVec 32) : EReal :=
  Ideal.div (∑ p : Fin 128, ∑ q : Fin 128, cell x w p q)
    (max (((w.toInt : ℝ) : EReal) * ((w.toInt : ℝ) : EReal)) eps)

/-! ## Bits as numbers -/

/-- A bit widened to a word and read as a signed integer is the bit read as a natural number. -/
theorem toInt_setWidth_bit (a : BitVec 1) : (((a.setWidth 32).toInt : ℝ) : EReal) = ((a.toNat : ℝ) : EReal) := by
  have h : ∀ a : BitVec 1, (a.setWidth 32).toInt = (a.toNat : Int) := by decide
  rw [h a]; norm_cast

/-- The product of two bits read as numbers is their conjunction read as a number. -/
theorem bit_mul_bit (a b : BitVec 1) :
    ((a.toNat : ℝ) : EReal) * ((b.toNat : ℝ) : EReal) = (((IntOp.andi a b).toNat : ℝ) : EReal) := by
  have h : ∀ a b : BitVec 1, (IntOp.andi a b).toNat = a.toNat * b.toNat := by decide
  rw [h a b, ← EReal.coe_mul]; norm_cast

/-- Adding the zero word changes nothing. -/
theorem addi_zero (x : BitVec 32) : IntOp.addi x 0#32 = x := by
  simp [IntOp.addi]

/-! ## The guard and the square of a count -/

/-- The guard's value: 11258999 / 2^50. -/
theorem eps_eq : eps = (((11258999 : ℝ) / 2 ^ 50 : ℝ) : EReal) := by
  simp [eps, Ideal.ofBits, Ideal.ieee, -EReal.coe_mul]; norm_num

theorem eps_le_one : eps ≤ 1 := by
  rw [eps_eq, ← EReal.coe_one, EReal.coe_le_coe_iff]
  norm_num

/-- The square of a non-zero integer is at least the guard, so the guard does not bind. -/
theorem max_sq_eps (w : BitVec 32) (hw : w ≠ 0#32) :
    max (((w.toInt : ℝ) : EReal) * ((w.toInt : ℝ) : EReal)) eps = ((w.toInt : ℝ) : EReal) * ((w.toInt : ℝ) : EReal) := by
  apply max_eq_left
  refine le_trans eps_le_one ?_
  rw [← EReal.coe_mul, ← EReal.coe_one, EReal.coe_le_coe_iff]
  have hz : w.toInt ≠ 0 := by
    intro h
    apply hw
    have := BitVec.eq_of_toInt_eq (x := w) (y := 0#32) (by simpa using h)
    exact this
  have h1 : (1 : ℤ) ≤ w.toInt * w.toInt := by
    have := mul_self_pos.mpr hz
    omega
  exact_mod_cast h1

/-- For a non-zero count the guarded loss is the loss. -/
theorem guardedLoss_eq (x : Fin 128 → Fin 256 → EReal) (w : BitVec 32) (hw : w ≠ 0#32) :
    guardedLoss x w = sampleLoss x w := by
  unfold guardedLoss sampleLoss
  rw [max_sq_eps w hw]

end Cert.MotifLoss

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.Payload.lean ====
/-
  The kernel's block, read at a sample.

  At one grid point the kernel holds 32 samples: a [32, 128, 256] block of rows and a [32, 1] column of count
  words, and stores a [32, 1] column. The stored entry of sample r is the guarded loss of that sample's rows
  and count word: the batched matrix product into zero is the Gram matrix of the sample's rows, the lane sums
  of squares are the squared norms (kept as a column, transposed to a row, both spread over the 128 x 128
  square), the comparison bits of the lane number with the count, widened to words and converted, are 0/1
  numbers whose product is the conjunction's number, the identity comes from comparing row and lane numbers,
  and the two nested sums run over q and then p.
-/
import proofs.«137518_j30640296689664_2_alg».proof.Proof.Gen.KernelIdeal.Skeleton
import proofs.«137518_j30640296689664_2_alg».proof.Proof.Spec
import proofs.«137518_j30640296689664_2_alg».proof.Proof.LibCube

noncomputable section

namespace Cert.MotifLoss.Kern

open Cert.KernelIdeal Cert.KernelIdeal.Gen
open Idealize.ShloMosaic Idealize.ShloMosaic.ValueIdx Cert.MotifLoss Cert.Lib.Cube

/-! ## The batched product of a block with itself -/

theorem lhs_0 (i : S32x128x128.Idx) (q : dot_S32x128x256_S32x128x256_S32x128x128_2_2_1_1_0_0.contr.Idx) :
    (dot_S32x128x256_S32x128x256_S32x128x128_2_2_1_1_0_0.lhsIdx i q 0).val = (i 0).val := by
  unfold DotDims.lhsIdx
  rw [dif_pos (show (0 : Fin S32x128x256.rank) ∈ dot_S32x128x256_S32x128x256_S32x128x128_2_2_1_1_0_0.lhsBatch by decide)]
  rfl
theorem lhs_1 (i : S32x128x128.Idx) (q : dot_S32x128x256_S32x128x256_S32x128x128_2_2_1_1_0_0.contr.Idx) :
    (dot_S32x128x256_S32x128x256_S32x128x128_2_2_1_1_0_0.lhsIdx i q 1).val = (i 1).val := by
  unfold DotDims.lhsIdx
  rw [dif_neg (show ¬(1 : Fin S32x128x256.rank) ∈ dot_S32x128x256_S32x128x256_S32x128x128_2_2_1_1_0_0.lhsBatch by decide), dif_pos (show (1 : Fin S32x128x256.rank) ∈ dot_S32x128x256_S32x128x256_S32x128x128_2_2_1_1_0_0.lhsNonContracting by decide)]
  rfl
theorem lhs_2 (i : S32x128x128.Idx) (q : dot_S32x128x256_S32x128x256_S32x128x128_2_2_1_1_0_0.contr.Idx) :
    (dot_S32x128x256_S32x128x256_S32x128x128_2_2_1_1_0_0.lhsIdx i q 2).val = (q ⟨0, by decide⟩).val :=
  dot_S32x128x256_S32x128x256_S32x128x128_2_2_1_1_0_0.lhsIdx_val_of_single rfl i q
theorem rhs_0 (i : S32x128x128.Idx) (q : dot_S32x128x256_S32x128x256_S32x128x128_2_2_1_1_0_0.contr.Idx) :
    (dot_S32x128x256_S32x128x256_S32x128x128_2_2_1_1_0_0.rhsIdx i q 0).val = (i 0).val := by
  unfold DotDims.rhsIdx
  rw [dif_pos (show (0 : Fin S32x128x256.rank) ∈ dot_S32x128x256_S32x128x256_S32x128x128_2_2_1_1_0_0.rhsBatch by decide)]
  rfl
theorem rhs_1 (i : S32x128x128.Idx) (q : dot_S32x128x256_S32x128x256_S32x128x128_2_2_1_1_0_0.contr.Idx) :
    (dot_S32x128x256_S32x128x256_S32x128x128_2_2_1_1_0_0.rhsIdx i q 1).val = (i 2).val := by
  unfold DotDims.rhsIdx
  rw [dif_neg (show ¬(1 : Fin S32x128x256.rank) ∈ dot_S32x128x256_S32x128x256_S32x128x128_2_2_1_1_0_0.rhsBatch by decide), dif_pos (show (1 : Fin S32x128x256.rank) ∈ dot_S32x128x256_S32x128x256_S32x128x128_2_2_1_1_0_0.rhsNonContracting by decide)]
  rfl
theorem rhs_2 (i : S32x128x128.Idx) (q : dot_S32x128x256_S32x128x256_S32x128x128_2_2_1_1_0_0.contr.Idx) :
    (dot_S32x128x256_S32x128x256_S32x128x128_2_2_1_1_0_0.rhsIdx i q 2).val = (q ⟨0, by decide⟩).val :=
  dot_S32x128x256_S32x128x256_S32x128x128_2_2_1_1_0_0.rhsIdx_val_of_single rfl i q

/-- Entry (r, p, q) of the batched product into zero: the inner product of rows p and q of sample r. -/
theorem gram_block (l : FVec Ideal S32x128x256 .bf16) (rr : FVec Ideal S32x128x256 .bf16) (r : Fin 32) (p q : Fin 128) :
    matmul dot_S32x128x256_S32x128x256_S32x128x128_2_2_1_1_0_0 none l rr (constant S32x128x128 .f32 0x00000000#32) (ix3 r p q)
      = ∑ k : Fin 256, l (ix3 r p k) * rr (ix3 r q k) := by
  simp only [matmul]
  rw [Ideal.matmul_constant_zero_apply, ← Equiv.sum_comp (ValueIdx.contrEquiv1 dot_S32x128x256_S32x128x256_S32x128x128_2_2_1_1_0_0 256 rfl rfl).symm]
  refine Finset.sum_congr rfl fun k _ => ?_
  have hk := ValueIdx.contrEquiv1_symm_val dot_S32x128x256_S32x128x256_S32x128x128_2_2_1_1_0_0 256 rfl rfl k
  have el : dot_S32x128x256_S32x128x256_S32x128x128_2_2_1_1_0_0.lhsIdx (ix3 r p q) ((ValueIdx.contrEquiv1 dot_S32x128x256_S32x128x256_S32x128x128_2_2_1_1_0_0 256 rfl rfl).symm k) = ix3 r p k := funext fun a => Fin.ext (by
    match a with
    | ⟨0, _⟩ => exact lhs_0 _ _
    | ⟨1, _⟩ => exact lhs_1 _ _
    | ⟨2, _⟩ => exact (lhs_2 _ _).trans hk)
  have er : dot_S32x128x256_S32x128x256_S32x128x128_2_2_1_1_0_0.rhsIdx (ix3 r p q) ((ValueIdx.contrEquiv1 dot_S32x128x256_S32x128x256_S32x128x128_2_2_1_1_0_0 256 rfl rfl).symm k) = ix3 r q k := funext fun a => Fin.ext (by
    match a with
    | ⟨0, _⟩ => exact rhs_0 _ _
    | ⟨1, _⟩ => exact rhs_1 _ _
    | ⟨2, _⟩ => exact (rhs_2 _ _).trans hk)
  rw [el, er]

/-! ## The body's stages, as functions of the two blocks it loads -/

variable (x0 : Vec Ideal S32x128x256 .f32) (x1 : Vec Ideal S32x1 .i32)

/-- The rows' norms, kept as a column. -/
def normCol : FVec Ideal S32x128x1 .f32 :=
  sqrt (shapeCast S32x128x1 (multiReduction .add [2] S32x128 (mulf x0 x0) 0x00000000#32 reduces_S32x128x256_S32x128 (.inl rfl) rfl) shapeCasts_S32x128_S32x128x1)

/-- The guarded cosine matrices. -/
def cosBlock : FVec Ideal S32x128x128 .f32 :=
  divf (matmul dot_S32x128x256_S32x128x256_S32x128x128_2_2_1_1_0_0 none (truncf .bf16 x0 bitsLt_bf16_f32) (truncf .bf16 x0 bitsLt_bf16_f32) (constant S32x128x128 .f32 0x00000000#32))
    (maximumf (mulf (broadcastTo S32x128x128 (normCol x0) broadcasts_S32x128x1_S32x128x128)
        (broadcastTo S32x128x128 (transpose S32x1x128 [0, 2, 1] (normCol x0) transposes_S32x128x1_p0_2_1_S32x1x128) broadcasts_S32x1x128_S32x128x128))
      (broadcast S32x128x128 (Scalar.ofBits .f32 0x322BCC77#32)))

/-- "Lane p is below the sample's count", as a 0/1 number. -/
def validRow : FVec Ideal S32x128 .f32 :=
  sitofp .f32 (extui 32 (cmpi .slt (iota .tc S32x128 32 [1] iota_S32x128_d1_w32)
    (broadcastTo S32x128 (shapeCast S32x1 x1 shapeCasts_S32x1_S32x1) broadcasts_S32x1_S32x128)) natLt_1_32)

/-- The mask: the outer product of that row with itself. -/
def maskBlock : FVec Ideal S32x128x128 .f32 :=
  mulf (broadcastTo S32x128x128 (shapeCast S32x128x1 (validRow x1) shapeCasts_S32x128_S32x128x1) broadcasts_S32x128x1_S32x128x128)
    (broadcastTo S32x128x128 (shapeCast S32x1x128 (validRow x1) shapeCasts_S32x128_S32x1x128) broadcasts_S32x1x128_S32x128x128)

/-- The identity matrix, repeated for every sample. -/
def eyeBlock : FVec Ideal S32x128x128 .f32 :=
  broadcastTo S32x128x128 (shapeCast S1x128x128 (sitofp .f32 (extui 32 (cmpi .eq (iota .tc S128x128 32 [0] iota_S128x128_d0_w32)
    (iota .tc S128x128 32 [1] iota_S128x128_d1_w32)) natLt_1_32)) shapeCasts_S128x128_S1x128x128) broadcasts_S1x128x128_S32x128x128

/-- The masked squared deviations. -/
def cellBlock : FVec Ideal S32x128x128 .f32 :=
  mulf (mulf (subf (cosBlock x0) eyeBlock) (subf (cosBlock x0) eyeBlock)) (maskBlock x1)

/-- Their sums along the lanes, then down the rows. -/
def rowSums : FVec Ideal S32x128 .f32 :=
  multiReduction .add [2] S32x128 (cellBlock x0 x1) 0x00000000#32 reduces_S32x128x128_S32x128 (.inl rfl) rfl
def totals : FVec Ideal S32x1 .f32 :=
  multiReduction .add [1] S32x1 (shapeCast S32x128x1 (rowSums x0 x1) shapeCasts_S32x128_S32x128x1) 0x00000000#32 reduces_S32x128x1_S32x1 (.inl rfl) rfl

/-- The guarded squares of the counts. -/
def denoms : FVec Ideal S32x1 .f32 :=
  maximumf (mulf (sitofp .f32 (shapeCast S32x1 x1 shapeCasts_S32x1_S32x1)) (sitofp .f32 (shapeCast S32x1 x1 shapeCasts_S32x1_S32x1)))
    (broadcast S32x1 (Scalar.ofBits .f32 0x322BCC77#32))

/-- The stored value is the totals over the guarded squares. -/
theorem pay_eq : k0_pay1 (F := Ideal) x0 x1 = divf (totals x0 x1) (denoms x1) := rfl

/-! ## Each stage at an entry -/

theorem normCol_at (r : Fin 32) (p : Fin 128) (z : Fin 1) :
    normCol x0 (ix3 r p z) = Ideal.sqrt (∑ k : Fin 256, x0 (ix3 r p k) * x0 (ix3 r p k)) := by
  unfold normCol
  show Ideal.sqrt (shapeCast S32x128x1 _ _ (ix3 r p z)) = _
  rw [cast_col, sum_last]
  rfl

theorem cosBlock_at (r : Fin 32) (p q : Fin 128) :
    cosBlock x0 (ix3 r p q) = cosine (fun p k => x0 (ix3 r p k)) p q := by
  unfold cosBlock
  show Ideal.div (matmul (F := Ideal) dot_S32x128x256_S32x128x256_S32x128x128_2_2_1_1_0_0 none (truncf .bf16 x0 bitsLt_bf16_f32)
      (truncf .bf16 x0 bitsLt_bf16_f32) (constant S32x128x128 .f32 0x00000000#32) (ix3 r p q))
    (max (broadcastTo S32x128x128 (normCol x0) _ (ix3 r p q) * broadcastTo S32x128x128 (transpose S32x1x128 [0, 2, 1] (normCol x0) _) _ (ix3 r p q)) eps) = _
  rw [gram_block, spread_col, spread_row, transpose_col, normCol_at, normCol_at]
  rfl

theorem validRow_at (r : Fin 32) (p : Fin 128) :
    validRow x1 (ix2 r p) = (((below (x1 (ix2 r (0 : Fin 1))) p).toNat : ℝ) : EReal) := by
  unfold validRow
  show FloatOps.sitofp (F := Ideal) .f32 ((IntOp.cmpi .slt (iota .tc S32x128 32 [1] iota_S32x128_d1_w32 (ix2 r p))
    (broadcastTo S32x128 (shapeCast S32x1 x1 shapeCasts_S32x1_S32x1) broadcasts_S32x1_S32x128 (ix2 r p))).setWidth 32) = _
  rw [iota_lane, spread_col2, shapeCast_self]
  exact toInt_setWidth_bit _

theorem maskBlock_at (r : Fin 32) (p q : Fin 128) :
    maskBlock x1 (ix3 r p q)
      = (((IntOp.andi (below (x1 (ix2 r (0 : Fin 1))) p) (below (x1 (ix2 r (0 : Fin 1))) q)).toNat : ℝ) : EReal) := by
  unfold maskBlock
  show broadcastTo S32x128x128 (shapeCast S32x128x1 (validRow x1) _) _ (ix3 r p q)
    * broadcastTo S32x128x128 (shapeCast S32x1x128 (validRow x1) _) _ (ix3 r p q) = _
  rw [spread_col, spread_row, cast_col, cast_row, validRow_at, validRow_at, bit_mul_bit]

theorem eyeBlock_at (r : Fin 32) (p q : Fin 128) :
    eyeBlock (ix3 r p q) = (((onDiag p q).toNat : ℝ) : EReal) := by
  unfold eyeBlock
  rw [spread_slab, cast_slab]
  show FloatOps.sitofp (F := Ideal) .f32 ((IntOp.cmpi .eq (iota .tc S128x128 32 [0] iota_S128x128_d0_w32 (ix2 p q))
    (iota .tc S128x128 32 [1] iota_S128x128_d1_w32 (ix2 p q))).setWidth 32) = _
  rw [iota_row, iota_lane]
  exact toInt_setWidth_bit _

theorem cellBlock_at (r : Fin 32) (p q : Fin 128) :
    cellBlock x0 x1 (ix3 r p q) = cell (fun p k => x0 (ix3 r p k)) (x1 (ix2 r (0 : Fin 1))) p q := by
  unfold cellBlock
  show (cosBlock x0 (ix3 r p q) - eyeBlock (ix3 r p q)) * (cosBlock x0 (ix3 r p q) - eyeBlock (ix3 r p q))
    * maskBlock x1 (ix3 r p q) = _
  rw [cosBlock_at, eyeBlock_at, maskBlock_at]
  rfl

theorem rowSums_at (r : Fin 32) (p : Fin 128) :
    rowSums x0 x1 (ix2 r p) = ∑ q : Fin 128, cell (fun p k => x0 (ix3 r p k)) (x1 (ix2 r (0 : Fin 1))) p q := by
  unfold rowSums
  rw [sum_last]
  exact Finset.sum_congr rfl fun q _ => cellBlock_at x0 x1 r p q

theorem totals_at (r : Fin 32) (z : Fin 1) :
    totals x0 x1 (ix2 r z)
      = ∑ p : Fin 128, ∑ q : Fin 128, cell (fun p k => x0 (ix3 r p k)) (x1 (ix2 r (0 : Fin 1))) p q := by
  unfold totals
  rw [sum_mid]
  refine Finset.sum_congr rfl fun p _ => ?_
  rw [cast_col]
  exact rowSums_at x0 x1 r p

theorem denoms_at (r : Fin 32) (z : Fin 1) :
    denoms x1 (ix2 r z) = max (((x1 (ix2 r z)).toInt : ℝ) * (((x1 (ix2 r z)).toInt : ℝ) : EReal)) eps := by
  unfold denoms
  rw [shapeCast_self]
  rfl

/-! ## The stored entry -/

/-- The entry the body stores for sample r of its block: the guarded loss of the sample's rows and count. -/
theorem pay_at (r : Fin 32) (z : Fin 1) :
    k0_pay1 (F := Ideal) x0 x1 (ix2 r z) = guardedLoss (fun p k => x0 (ix3 r p k)) (x1 (ix2 r z)) := by
  obtain rfl : z = (0 : Fin 1) := Subsingleton.elim z 0
  rw [pay_eq]
  show Ideal.div (totals x0 x1 (ix2 r 0)) (denoms x1 (ix2 r 0)) = _
  rw [totals_at, denoms_at]
  rfl

end Cert.MotifLoss.Kern

end
-- ==== Proof.Blocks.lean ====
/-
  From the kernel's blocks to its result array, and the count column the region reads.

  Grid point t holds samples 32 t, ..., 32 t + 31: its block of rows is rows 32 t + r of the argument, its block
  of counts the same rows of the count column, and the column it writes back is rows 32 t + r of one
  whole-array function, the guarded loss of each sample. The 32 blocks tile the 1024 rows, so after the region
  the result array IS that function. The count column the region reads is the count vector reshaped
  [1024] -> [1024, 1]: its entry (b, 0) is the vector's entry b.
-/
import proofs.«137518_j30640296689664_2_alg».proof.Proof.Gen.KernelIdeal.Frame
import proofs.«137518_j30640296689664_2_alg».proof.Proof.Payload
import Idealize.ShloMosaic.Lib.Pipeline.Value
import Idealize.ShloMosaic.Lib.StableHlo.Run
import Idealize.ShloMosaic.Lib.Tactic

noncomputable section

namespace Cert.MotifLoss.Kern

open Cert.KernelIdeal Cert.KernelIdeal.Gen
open Idealize.ShloMosaic Idealize.ShloMosaic.TcCoe Idealize.SL.Sem Idealize.ShloMosaic.ValueIdx Cert.MotifLoss
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The sample an entry of the [1024, 1] column belongs to. -/
def rowOf (i : S1024x1.Idx) : Fin 1024 := ⟨(i 0).val, (i 0).isLt⟩

theorem rowOf_val (i : S1024x1.Idx) : (rowOf i).val = (i 0).val := rfl

/-- The column of guarded losses, one per sample, as a function of the rows array and of the count column. -/
def lossCol (a0 : S1024x128x256.Idx → Elt Ideal .f32) (a1 : S1024x1.Idx → Elt Ideal .i32) : S1024x1.Idx → Elt Ideal .f32 :=
  fun i => guardedLoss (fun p k => a0 (ix3 (rowOf i) p k)) (a1 (ix2 (rowOf i) (0 : Fin 1)))

/-- The index maps over the grid: point t takes block t along the sample axis, block 0 along the others. -/
theorem idx_facts : ∀ t : Fin cfg0.N, win0_0.index t (0 : Fin 3) = t.val ∧ win0_0.index t (1 : Fin 3) = 0
    ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The rows block at point t: entry (r, p, k) is the argument's entry (32 t + r, p, k). -/
theorem rows_read (c : Dev nD) (t : Fin cfg0.N) (r : Fin 32) (p : Fin 128) (k : Fin 256) (R : Fin 1024)
    (hR : R.val = t.val * 32 + r.val) :
    (iblk m c 0 t : Vec Ideal S32x128x256 .f32) (ix3 r p k) = V m c main_arg0 (ix3 R p k) := by
  obtain ⟨e00, e01, e02, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 32 + 1 * r.val = R.val; rw [e00, hR]; omega
  | ⟨1, _⟩ => show win0_0.index t (1 : Fin 3) * 128 + 1 * p.val = p.val; rw [e01]; omega
  | ⟨2, _⟩ => show win0_0.index t (2 : Fin 3) * 256 + 1 * k.val = k.val; rw [e02]; omega

/-- The counts block at point t: entry (r, 0) is the count column's entry (32 t + r, 0). -/
theorem count_read (c : Dev nD) (t : Fin cfg0.N) (r : Fin 32) (z : Fin 1) (R : Fin 1024)
    (hR : R.val = t.val * 32 + r.val) :
    (iblk m c 1 t : Vec Ideal S32x1 .i32) (ix2 r z) = V m c main_v0 (ix2 R (0 : Fin 1)) := by
  obtain ⟨-, -, -, e10, e11, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 2) * 32 + 1 * r.val = R.val; rw [e10, hR]; omega
  | ⟨1, _⟩ => show win0_1.index t (1 : Fin 2) * 1 + 1 * z.val = 0; rw [e11]; have := z.isLt; omega

/-- What point t writes back is block t of the column of guarded losses. -/
theorem flushed_eq (c : Dev nD) (t : Fin cfg0.N) :
    (dats m 0 c).flushed 2 t
      = ((cfg0.win 2).blk t).view.read (Elt Ideal) (lossCol (V m c main_arg0) (V m c main_v0)) := by
  show (cfg0.win 2).cut (grid0.coords t) ((dats m 0 c).after 2 t) = _
  rw [after0_2]
  unfold out0_2
  rw [View.canon_unit_zero hz2]
  simp only [View.ld_unit_zero (S := S32x128x256) hz3, View.ld_unit_zero (S := S32x1) hz2]
  obtain ⟨-, -, -, -, -, e20, e21⟩ := idx_facts t
  funext j
  obtain ⟨r, z, rfl⟩ : ∃ (r : Fin 32) (z : Fin 1), j = ix2 r z := ⟨j 0, j 1, eq_ix2 j⟩
  show k0_pay1 (F := Ideal) (iblk m c 0 t) (iblk m c 1 t) (ix2 r z)
    = lossCol (V m c main_arg0) (V m c main_v0) (((cfg0.win 2).blk t).view.emb (ix2 r z))
  refine (pay_at (iblk m c 0 t) (iblk m c 1 t) r z).trans ?_
  have key : ∀ (R : Fin 1024), R.val = t.val * 32 + r.val →
      guardedLoss (fun p k => (iblk m c 0 t : Vec Ideal S32x128x256 .f32) (ix3 r p k))
          ((iblk m c 1 t : Vec Ideal S32x1 .i32) (ix2 r z))
        = guardedLoss (fun p k => V m c main_arg0 (ix3 R p k)) (V m c main_v0 (ix2 R (0 : Fin 1))) := by
    intro R hR
    rw [count_read m c t r z R hR]
    exact congrArg (fun x => guardedLoss x _) (funext fun p => funext fun k => rows_read m c t r p k R hR)
  exact key (rowOf (((cfg0.win 2).blk t).view.emb (ix2 r z))) (by
    rw [rowOf_val]
    show win0_2.index t (0 : Fin 2) * 32 + 1 * r.val = _
    rw [e20]; omega)

/-- An entry of the result array is in point t's block iff each coordinate is in the block's range. -/
theorem mem_blk (t : Fin cfg0.N) (i : S1024x1.Idx) :
    i ∈ ((cfg0.win 2).blk t).view.set ↔ ∀ a : Fin 2, win0_2.index t a * S32x1.size a ≤ (i a).val
      ∧ (i a).val < win0_2.index t a * S32x1.size a + S32x1.size a := by
  show i ∈ ((View.whole main_v1).slice (win0_2.rect t)).set ↔ _
  rw [View.set_slice_whole, Rect.mem_set_unit]
  exact Iff.rfl

/-- Every entry of the result array is in the block of the point its sample falls in. -/
theorem cover (i : S1024x1.Idx) :
    ∃ t : Fin cfg0.N, (cfg0.win 2).flush t = true ∧ i ∈ ((cfg0.win 2).blk t).view.set := by
  have hi0 : (i 0).val < 1024 := (i 0).isLt
  have hi1 : (i 1).val < 1 := (i 1).isLt
  have hN : cfg0.N = 32 := N_0
  have ht : (i 0).val / 32 < cfg0.N := by rw [hN]; omega
  obtain ⟨-, -, -, -, -, e20, e21⟩ := idx_facts ⟨(i 0).val / 32, ht⟩
  refine ⟨⟨(i 0).val / 32, ht⟩, flush0_2 _, ?_⟩
  rw [mem_blk]
  intro a
  match a with
  | ⟨0, _⟩ =>
    show win0_2.index ⟨(i 0).val / 32, ht⟩ (0 : Fin 2) * 32 ≤ (i 0).val
      ∧ (i 0).val < win0_2.index ⟨(i 0).val / 32, ht⟩ (0 : Fin 2) * 32 + 32
    rw [e20]
    show (i 0).val / 32 * 32 ≤ (i 0).val ∧ (i 0).val < (i 0).val / 32 * 32 + 32
    omega
  | ⟨1, _⟩ =>
    show win0_2.index ⟨(i 0).val / 32, ht⟩ (1 : Fin 2) * 1 ≤ (i 1).val
      ∧ (i 1).val < win0_2.index ⟨(i 0).val / 32, ht⟩ (1 : Fin 2) * 1 + 1
    rw [e21]
    omega

/-- The result array after the region: the column of guarded losses. -/
theorem final (c : Dev nD) : (dats m 0 c).arrAt 2 cfg0.N = lossCol (V m c main_arg0) (V m c main_v0) :=
  (dats m 0 c).arrAt_eq_of_cover 2 (lossCol (V m c main_arg0) (V m c main_v0)) (fun t _ => flushed_eq m c t) cover

end Cert.MotifLoss.Kern

end
-- ==== Proof.RefSide.lean ====
/-
  The reference, read at a sample.

  The reference computes, for every sample b at once, the guarded cosine matrix of the sample's rows, its
  deviation from the identity, the mask of the pairs below the sample's count, and the sum of the masked
  squares over the square of the count. Read at b, operation by operation (the generated per-operation
  readings), this is `sampleLoss` of the sample's rows and count word: each layout operation only moves a
  coordinate, the sum over the two trailing axes is the double sum over (p, q), and the identity matrix's
  row number has a zero word added to it, which changes nothing.
-/
import proofs.«137518_j30640296689664_2_alg».proof.Proof.Gen.ReferenceIdeal.Read
import proofs.«137518_j30640296689664_2_alg».proof.Proof.Spec
import proofs.«137518_j30640296689664_2_alg».proof.Proof.LibCube

noncomputable section

namespace Cert.MotifLoss.Ref

open Cert.ReferenceIdeal Cert.ReferenceIdeal.Gen Cert.ReferenceIdeal.Read
open Idealize.ShloMosaic Idealize.ShloMosaic.ValueIdx Cert.MotifLoss

variable (x0 : (⟨S1024x128x256, .f32⟩ : BufTy).Contents (Elt Ideal)) (x1 : (⟨S1024, .i32⟩ : BufTy).Contents (Elt Ideal))

/-- The rows of sample b. -/
abbrev rows (b : Fin 1024) : Fin 128 → Fin 256 → EReal := fun p k => x0 (ix3 b p k)

/-! ## The layout operations, at coordinates -/

theorem gram_at (b : Fin 1024) (p q : Fin 128) :
    val_main_v0 (F := Ideal) x0 (ix3 b p q) = ∑ k : Fin 256, x0 (ix3 b p k) * x0 (ix3 b q k) := by
  refine (val_main_v0_apply x0 _).trans (Finset.sum_congr rfl fun k _ => ?_)
  have el : lidx_main_v0 (ix3 b p q) k = ix3 b p k := funext fun a => Fin.ext (by
    match a with | ⟨0, _⟩ => rfl | ⟨1, _⟩ => rfl | ⟨2, _⟩ => rfl)
  have er : ridx_main_v0 (ix3 b p q) k = ix3 b q k := funext fun a => Fin.ext (by
    match a with | ⟨0, _⟩ => rfl | ⟨1, _⟩ => rfl | ⟨2, _⟩ => rfl)
  rw [el, er]

theorem sumsq_at (b : Fin 1024) (p : Fin 128) :
    val_main_call0_v1 (F := Ideal) x0 (ix2 b p) = ∑ k : Fin 256, x0 (ix3 b p k) * x0 (ix3 b p k) := by
  refine (val_main_call0_v1_apply x0 _).trans ?_
  rw [val_main_call0_cst_apply]
  show Ideal.ofBits .f32 0x00000000#32 + _ = _
  rw [Ideal.ofBits_zero_f32, zero_add]
  refine Finset.sum_congr rfl fun k _ => ?_
  have e : idx_main_call0_v1 (ix2 b p) k = ix3 b p k := funext fun a => Fin.ext (by
    match a with | ⟨0, _⟩ => rfl | ⟨1, _⟩ => rfl | ⟨2, _⟩ => rfl)
  rw [e]
  rfl

theorem norm_at (b : Fin 1024) (p : Fin 128) (z : Fin 1) :
    val_main_v1 (F := Ideal) x0 (ix3 b p z) = Ideal.sqrt (∑ k : Fin 256, x0 (ix3 b p k) * x0 (ix3 b p k)) := by
  rw [val_main_v1_apply, val_main_call0_v2_apply]
  have e : idx_main_call0_v2 (ix3 b p z) = ix2 b p := funext fun a => Fin.ext (by
    match a with | ⟨0, _⟩ => rfl | ⟨1, _⟩ => rfl)
  rw [e, sumsq_at]
  rfl

theorem normcol_at (b : Fin 1024) (p q : Fin 128) :
    val_main_v3 (F := Ideal) x0 (ix3 b p q) = Ideal.sqrt (∑ k : Fin 256, x0 (ix3 b p k) * x0 (ix3 b p k)) := by
  rw [val_main_v3_apply]
  have e : idx_main_v3 (ix3 b p q) = ix3 b p (0 : Fin 1) := funext fun a => Fin.ext (by
    match a with | ⟨0, _⟩ => rfl | ⟨1, _⟩ => rfl | ⟨2, _⟩ => rfl)
  rw [e, norm_at]

theorem normrow_at (b : Fin 1024) (p q : Fin 128) :
    val_main_v4 (F := Ideal) x0 (ix3 b p q) = Ideal.sqrt (∑ k : Fin 256, x0 (ix3 b q k) * x0 (ix3 b q k)) := by
  rw [val_main_v4_apply, val_main_v2_apply]
  have e : idx_main_v2 (idx_main_v4 (ix3 b p q)) = ix3 b q (0 : Fin 1) := funext fun a => Fin.ext (by
    match a with | ⟨0, _⟩ => rfl | ⟨1, _⟩ => rfl | ⟨2, _⟩ => rfl)
  rw [e, norm_at]

/-- The guarded cosine of rows p and q of sample b. -/
theorem cos_at (b : Fin 1024) (p q : Fin 128) :
    val_main_v8 (F := Ideal) x0 (ix3 b p q) = cosine (rows x0 b) p q := by
  rw [val_main_v8_apply, val_main_v7_apply, val_main_v5_apply, gram_at, normcol_at, normrow_at, val_main_v6_apply,
    val_main_cst_apply]
  rfl

/-- The identity matrix's entry. -/
theorem eye_at (b : Fin 1024) (p q : Fin 128) :
    val_main_v28 (F := Ideal) (ix3 b p q) = (((onDiag p q).toNat : ℝ) : EReal) := by
  rw [val_main_v28_apply, val_main_v27_apply]
  have e : idx_main_v27 (idx_main_v28 (ix3 b p q)) = ix2 p q := funext fun a => Fin.ext (by
    match a with | ⟨0, _⟩ => rfl | ⟨1, _⟩ => rfl)
  rw [e, val_main_v26_apply, val_main_v25_apply, val_main_v24_apply, val_main_v23_apply, val_main_c_apply,
    val_main_v21_apply, val_main_v22_apply, addi_zero]
  rfl

/-- The bit "row p of sample b is below the sample's count". -/
theorem below_at (b : Fin 1024) (p : Fin 128) :
    val_main_v14 (F := Ideal) x1 (ix2 b p) = below (x1 (ix1 b)) p := by
  rw [val_main_v14_apply, val_main_v12_apply, val_main_v10_apply, val_main_v9_apply, val_main_v13_apply,
    val_main_v11_apply]
  have e : idx_main_v11 (idx_main_v13 (ix2 b p)) = ix1 b := funext fun a => Fin.ext (by
    match a with | ⟨0, _⟩ => rfl)
  rw [e]
  rfl

/-- The mask's entry: the conjunction of the two bits, as a number. -/
theorem mask_at (b : Fin 1024) (p q : Fin 128) :
    val_main_v20 (F := Ideal) x1 (ix3 b p q)
      = (((IntOp.andi (below (x1 (ix1 b)) p) (below (x1 (ix1 b)) q)).toNat : ℝ) : EReal) := by
  rw [val_main_v20_apply, val_main_v19_apply, val_main_v17_apply, val_main_v15_apply, val_main_v18_apply,
    val_main_v16_apply]
  have e1 : idx_main_v15 (idx_main_v17 (ix3 b p q)) = ix2 b p := funext fun a => Fin.ext (by
    match a with | ⟨0, _⟩ => rfl | ⟨1, _⟩ => rfl)
  have e2 : idx_main_v16 (idx_main_v18 (ix3 b p q)) = ix2 b q := funext fun a => Fin.ext (by
    match a with | ⟨0, _⟩ => rfl | ⟨1, _⟩ => rfl)
  rw [e1, e2, below_at, below_at]
  rfl

/-- One entry of the masked squared deviation. -/
theorem cell_at (b : Fin 1024) (p q : Fin 128) :
    val_main_v31 (F := Ideal) x0 x1 (ix3 b p q) = cell (rows x0 b) (x1 (ix1 b)) p q := by
  rw [val_main_v31_apply, val_main_v30_apply, val_main_v29_apply, cos_at, eye_at, mask_at]
  rfl

/-! ## The sum over the two trailing axes, and the quotient -/

theorem plane_at (b : Fin 1024) :
    val_main_v33 (F := Ideal) x0 x1 (ix1 b) = ∑ p : Fin 128, ∑ q : Fin 128, cell (rows x0 b) (x1 (ix1 b)) p q := by
  unfold val_main_v33
  simp only [Host.reduceAdd, Ideal.hostReduceAdd_def]
  rw [Cert.Lib.Cube.host_sum_plane]
  show Ideal.ofBits .f32 0x00000000#32 + _ = _
  rw [Ideal.ofBits_zero_f32, zero_add]
  exact Finset.sum_congr rfl fun p _ => Finset.sum_congr rfl fun q _ => cell_at x0 x1 b p q

/-- The reference's per-sample vector at sample b is the sample's loss. -/
theorem loss_at (b : Fin 1024) :
    val_main_v35 (F := Ideal) x0 x1 (ix1 b) = sampleLoss (rows x0 b) (x1 (ix1 b)) := by
  rw [val_main_v35_apply, plane_at, val_main_v34_apply, val_main_v32_apply]
  rfl

end Cert.MotifLoss.Ref

end
-- ==== Proof.Bridge.lean ====
/-
  The two per-sample vectors are one.

  The kernel's result column, reshaped [1024, 1] -> [1024], holds at sample b the guarded loss of the sample's
  rows and count; the reference's per-sample vector holds the loss with the bare square of the count under
  the quotient. When no count is zero the guard does not bind, and the two vectors are equal entry by entry.
-/
import proofs.«137518_j30640296689664_2_alg».proof.Proof.Blocks
import proofs.«137518_j30640296689664_2_alg».proof.Proof.RefSide

noncomputable section

namespace Cert.MotifLoss

open Idealize.ShloMosaic Idealize.ShloMosaic.ValueIdx Cert.MotifLoss.Kern

/-- The kernel's per-sample vector: the column of guarded losses over the reshaped counts, reshaped to a vector. -/
def kernelVector (x0 : Cert.KernelIdeal.S1024x128x256.Idx → Elt Ideal .f32) (x1 : Cert.KernelIdeal.S1024.Idx → Elt Ideal .i32) :
    Cert.KernelIdeal.S1024.Idx → Elt Ideal .f32 :=
  shapeCast Cert.KernelIdeal.S1024
    (lossCol x0 (shapeCast Cert.KernelIdeal.S1024x1 x1 Cert.KernelIdeal.Facts₀.shapeCasts_S1024_S1024x1))
    Cert.KernelIdeal.Facts₀.shapeCasts_S1024x1_S1024

theorem kernelVector_at (x0 : Cert.KernelIdeal.S1024x128x256.Idx → Elt Ideal .f32) (x1 : Cert.KernelIdeal.S1024.Idx → Elt Ideal .i32)
    (b : Fin 1024) : kernelVector x0 x1 (ix1 b) = guardedLoss (fun p k => x0 (ix3 b p k)) (x1 (ix1 b)) := by
  unfold kernelVector
  rw [shapeCast_apply _ _ (ix1 b) (ix2 b (0 : Fin 1)) (by
    rw [Shape.rowMajor_val_two, Shape.rowMajor_val_one]
    show b.val * 1 + 0 = b.val
    omega)]
  unfold lossCol
  have hr : rowOf (ix2 b (0 : Fin 1)) = b := Fin.ext rfl
  show guardedLoss (fun p k => x0 (ix3 (rowOf (ix2 b (0 : Fin 1))) p k))
    (shapeCast Cert.KernelIdeal.S1024x1 x1 _ (ix2 (rowOf (ix2 b (0 : Fin 1))) (0 : Fin 1))) = _
  rw [hr, shapeCast_apply _ _ (ix2 b (0 : Fin 1)) (ix1 b) (by
    rw [Shape.rowMajor_val_two, Shape.rowMajor_val_one]
    show b.val = b.val * 1 + 0
    omega)]

/-- With every count non-zero, the kernel's per-sample vector is the reference's. -/
theorem kernelVector_eq (x0 : Cert.KernelIdeal.S1024x128x256.Idx → Elt Ideal .f32) (x1 : Cert.KernelIdeal.S1024.Idx → Elt Ideal .i32)
    (hx1 : ∀ b : Fin 1024, x1 (ix1 b) ≠ 0#32) :
    kernelVector x0 x1 = Cert.ReferenceIdeal.Read.val_main_v35 (F := Ideal) x0 x1 := by
  funext i
  obtain ⟨b, rfl⟩ : ∃ b : Fin 1024, i = ix1 b := ⟨i 0, eq_ix1 i⟩
  rw [kernelVector_at, Ref.loss_at]
  exact guardedLoss_eq _ _ (hx1 b)

end Cert.MotifLoss

end
-- ==== Proof.KernelRun.lean ====
/-
  The kernel's program, run.

  After the region the program reshapes the result column to a vector, sums it from zero and divides by 1024.
  The region leaves the column of guarded losses over the arrays it read: the rows argument, untouched, and
  the count vector reshaped to a column by the one host line before the region. So the program's result is the
  mean of the kernel's per-sample vector, and its two arguments end as they began.
-/
import proofs.«137518_j30640296689664_2_alg».proof.Proof.Blocks
import proofs.«137518_j30640296689664_2_alg».proof.Proof.Bridge

noncomputable section

namespace Cert.MotifLoss.Kern

open Cert.KernelIdeal Cert.KernelIdeal.Gen
open Idealize.ShloMosaic Idealize.ShloMosaic.TcCoe Idealize.SL.Sem Idealize.ShloMosaic.ValueIdx Cert.MotifLoss
open Idealize.ShloMosaic.Pipeline (Dat)

variable (m : (ℓ : Loc nD τ sig) → Buf (Elt Ideal) ℓ) (ρ : Dev nD → PrngReg)

/-- The mean of a vector of 1024 extended reals, as the host computes it: the sum from zero, over 1024. -/
def meanOf (v : S1024.Idx → Elt Ideal .f32) : S_.Idx → Elt Ideal .f32 :=
  Host.divf (F := Ideal)
    (Host.reduceAdd (F := Ideal) v (constant (F := Ideal) S_ .f32 0x00000000#32) reducesTo_S1024_S_d0 h_S_)
    (constant (F := Ideal) S_ .f32 0x44800000#32)

/-- The count column the region reads is the count vector, reshaped. -/
theorem counts_eq (c : Dev nD) :
    (V m c main_v0 : S1024x1.Idx → Elt Ideal .i32)
      = shapeCast S1024x1 (m ((c : Thread nD τ).loc main_arg1)) shapeCasts_S1024_S1024x1 := by
  show StableHlo.after hostOps0 (fun b => m (c, b)) (Proc.devRef .tc main_v0) = _
  after_results
  rfl

/-- The region's result array, in terms of the program's arguments. -/
theorem column_eq (c : Dev nD) :
    Pipeline.withArrays (cfgs 0).spec c (V0 m c) (fun w => (dats m 0 c).arrAt w (cfgs 0).N) (Proc.devRef .tc main_v1)
      = lossCol (m ((c : Thread nD τ).loc main_arg0))
          (shapeCast S1024x1 (m ((c : Thread nD τ).loc main_arg1)) shapeCasts_S1024_S1024x1) := by
  refine (Pipeline.withArrays_arr spec0 launch0.win.arr_inj c _ _ 2).trans ((final m c).trans ?_)
  rw [V_main_arg0, counts_eq]

/-- The program's result: the mean of the kernel's per-sample vector. -/
theorem tail_eq (c : Dev nD) :
    Pipeline.afterTail₀ cfgs (dats m) 0 (V0 m) [hostOps1] c main_v4
      = meanOf (kernelVector (m ((c : Thread nD τ).loc main_arg0)) (m ((c : Thread nD τ).loc main_arg1))) := by
  unfold Pipeline.afterTail₀
  show StableHlo.after hostOps1 _ (Proc.devRef .tc main_v4) = _
  after_results
  rw [column_eq]
  rfl

/-- Every weakly fair execution of the kernel's program terminates with its result at that mean and its
    arguments unchanged. -/
theorem run : θ_run defs (onTc (τ := τ) (main (F := Ideal))) ⟨m, fun _ => 0, ρ⟩ fun r => ∀ c : Dev nD,
      r.2.mem ((c.tc : Thread nD τ).loc main_v4)
        = meanOf (kernelVector (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.MotifLoss.Kern

end
-- ==== Proof.lean ====
/-
  A batch of 1024 samples, each a 128 x 256 matrix of rows with a signed count m: the per-sample loss is the
  sum over the pairs (p, q) below the count of (cos(x_p, x_q) - [p = q])^2, with the cosine's denominator
  guarded by eps = f32(1e-8), over m * m; the result is the mean of the 1024 losses.

  The kernel computes 32 samples per grid point — a batched matrix product for the inner products, lane sums
  for the norms, 0/1 numbers for the mask, two nested lane sums — and divides by max(m * m, eps); the host then
  reshapes, sums and divides by 1024. The reference computes every sample at once and divides by m * m. On
  the extended reals the two differ exactly when some count is zero (0 / 0 on the reference's side against
  0 / eps on the kernel's), which the precondition excludes: for a non-zero integer m, m * m >= 1 > eps and
  the guard does not bind. Everything else is the same function entry by entry: no law beyond that one is
  used, and the finiteness of the rows is never opened.

  The three frames are the generated ones (the reference's is its generated run with the result dropped);
  the idealization rewrote nothing, so the kernel and its idealization are one text.
-/
import proofs.«137518_j30640296689664_2_alg».proof.Defs
import proofs.«137518_j30640296689664_2_alg».proof.Proof.Gen.Kernel
import proofs.«137518_j30640296689664_2_alg».proof.Proof.Gen.Kernel.Skeleton
import proofs.«137518_j30640296689664_2_alg».proof.Proof.Gen.Kernel.Launch
import proofs.«137518_j30640296689664_2_alg».proof.Proof.Gen.Kernel.Points
import proofs.«137518_j30640296689664_2_alg».proof.Proof.Gen.Kernel.Frame
import proofs.«137518_j30640296689664_2_alg».proof.Proof.Gen.KernelIdeal
import proofs.«137518_j30640296689664_2_alg».proof.Proof.Gen.KernelIdeal.Skeleton
import proofs.«137518_j30640296689664_2_alg».proof.Proof.Gen.KernelIdeal.Launch
import proofs.«137518_j30640296689664_2_alg».proof.Proof.Gen.KernelIdeal.Points
import proofs.«137518_j30640296689664_2_alg».proof.Proof.Gen.KernelIdeal.Frame
import proofs.«137518_j30640296689664_2_alg».proof.Proof.Gen.ReferenceIdeal
import proofs.«137518_j30640296689664_2_alg».proof.Proof.Gen.ReferenceIdeal.Run
import proofs.«137518_j30640296689664_2_alg».proof.Proof.Gen.ReferenceIdeal.Read
import proofs.«137518_j30640296689664_2_alg».proof.Proof.Gen.Pre_finite_inputs
import proofs.«137518_j30640296689664_2_alg».proof.Proof.KernelRun
import proofs.«137518_j30640296689664_2_alg».proof.Proof.Bridge
import Idealize.ShloMosaic.Lib.ReduceAll
import Idealize.ShloMosaic.Lib.Affine
import Idealize.ShloMosaic.Adequacy
import Idealize.ShloMosaic.Init

noncomputable section

namespace Cert.Proof

open Idealize.ShloMosaic Idealize.SL.Sem Idealize.ShloMosaic.ValueIdx Cert.MotifLoss

/-- The precondition's result has one index. -/
instance : Subsingleton Cert.Pre_finite_inputs.S_.Idx := ⟨fun a b => funext fun d => d.elim0⟩

/-- The precondition's second conjunct, read back: no count word is zero. -/
theorem counts_ne_zero (a0 : FVec Ideal Cert.Pre_finite_inputs.S1024x128x256 .f32) (a1 : IVec Cert.Pre_finite_inputs.S1024 32)
    (h : Cert.Pre_finite_inputs.fn (F := Ideal) a0 a1 = fun _ => 1#1) (b : Fin 1024) : a1 (ix1 b) ≠ 0#32 := by
  have h0 := congrFun h ix0
  dsimp only [Cert.Pre_finite_inputs.fn] at h0
  have h1 := (IntOp.andi_eq_one.mp h0).2
  have h2 := Host.reduce_andi_all _ _ _ _ _ h1 (ix1 b)
  exact IntOp.cmpi_ne.mp h2

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean of one per-sample vector: the kernel's program by its run, the reference's
    by its generated run, its per-sample vector being the kernel's because no count is zero. -/
theorem algebraic : Cert.algebraic_KernelIdeal_ReferenceIdeal := by
  intro m ρ m' ρ' hpre hagree
  refine ⟨fun c => Kern.meanOf (kernelVector (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  have hne := counts_ne_zero _ _ (hpre c)
  show Cert.ReferenceIdeal.Read.val_main_v37 (F := Ideal) _ _
    = Kern.meanOf (kernelVector (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
  rw [kernelVector_eq _ _ hne]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
